-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S4096x512 : Shape := ⟨2, ![4096, 512]⟩
abbrev S4096x128 : Shape := ⟨2, ![4096, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8x2048x128 .f32) (main_arg1 : FVec F S4096x512 .f32) (main_arg2 : FVec F S4096x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S8x2048x128 : Shape := ⟨3, ![8, 2048, 128]⟩
abbrev S4096x512 : Shape := ⟨2, ![4096, 512]⟩
abbrev S4096x128 : Shape := ⟨2, ![4096, 128]⟩
abbrev S128x4096 : Shape := ⟨2, ![128, 4096]⟩
abbrev S8x2048x512 : Shape := ⟨3, ![8, 2048, 512]⟩
abbrev S1x512x128 : Shape := ⟨3, ![1, 512, 128]⟩
abbrev S1x512x512 : Shape := ⟨3, ![1, 512, 512]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S4096x512, .f32⟩
  | .hbm, ⟨2, _⟩ => ⟨S4096x128, .f32⟩
  | .hbm, ⟨3, _⟩ => ⟨S128x4096, .f32⟩
  | .hbm, ⟨4, _⟩ => ⟨S128x4096, .bf16⟩
  | .hbm, ⟨5, _⟩ => ⟨S4096x512, .bf16⟩
  | .hbm, ⟨6, _⟩ => ⟨S8x2048x512, .f32⟩
  | .local _ .vmem, ⟨0, _⟩ => ⟨S1x512x128, .f32⟩
  | .local _ .vmem, ⟨1, _⟩ => ⟨S1x512x128, .f32⟩
  | .local _ .vmem, ⟨2, _⟩ => ⟨S128x4096, .bf16⟩
  | .local _ .vmem, ⟨3, _⟩ => ⟨S4096x512, .bf16⟩
  | .local _ .vmem, ⟨4, _⟩ => ⟨S1x512x512, .f32⟩
  | .local _ .vmem, ⟨5, _⟩ => ⟨S1x512x512, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x128_S128x4096_1_0 : S4096x128.Transposes [1, 0] S128x4096
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S512x4096_S512 : S512x4096.Reduces [1] S512
  shapeCasts_S512_S512x1 : S512.ShapeCasts S512x1
  broadcasts_S512x1_S512x4096 : S512x1.Broadcasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x128_S128x4096_S512x4096_1_0_0_1_n_n_wf : DotDims.WF S512x128 S128x4096 S512x4096 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x2048x128.size a
  hwx0_0 : ∀ i : grid0.Coords, EltTy.bits .f32 = 32 ∨ (Rect.block (s := S8x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S4096x512 : Shape := ⟨2, ![4096, 512]⟩
abbrev S4096x128 : Shape := ⟨2, ![4096, 128]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S8x2048x512 : Shape := ⟨3, ![8, 2048, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S4096x512, .f32⟩
  | .hbm, ⟨2, _⟩ => ⟨S4096x128, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x4096, .f32⟩
  | .hbm, ⟨17, _⟩ => ⟨S8x2048x4096, .f32⟩
  | .hbm, ⟨18, _⟩ => ⟨S8x2048x512, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x2048x4096_S8x2048_d2 : S8x2048x4096.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x128_S4096x128_S8x2048x4096_2_1_01_0_n_n_wf : DotDims.WF S8x2048x128 S4096x128 S8x2048x4096 [2] [1] [0, 1] [0] [] []
  dot_S8x2048x4096_S4096x512_S8x2048x512_2_0_01_1_n_n_wf : DotDims.WF S8x2048x4096 S4096x512 S8x2048x512 [2] [0] [0, 1] [1] [] []

variable [Facts₀]

def dot_S8x2048x128_S4096x128_S8x2048x4096_2_1_01_0_n_n : DotDims S8x2048x128 S4096x128 S8x2048x4096 where
  lhsContracting := [2]
  rhsContracting := [1]
  lhsNonContracting := [0, 1]
  rhsNonContracting := [0]
  lhsBatch := []
  rhsBatch := []
  wf := dot_S8x2048x128_S4096x128_S8x2048x4096_2_1_01_0_n_n_wf
def dot_S8x2048x4096_S4096x512_S8x2048x512_2_0_01_1_n_n : DotDims S8x2048x4096 S4096x512 S8x2048x512 where
  lhsContracting := [2]
  rhsContracting := [0]
  lhsNonContracting := [0, 1]
  rhsNonContracting := [1]
  lhsBatch := []
  rhsBatch := []
  wf := dot_S8x2048x4096_S4096x512_S8x2048x512_2_0_01_1_n_n_wf

class Facts : Prop extends Facts₀ where

variable [Facts]
-- ==== Proof.LibSoftmax.lean ====
/-
  The row law of a softmax-weighted sum over the extended reals (general: any row length, imports only the library).
  `rmax` (a row's maximum folded from an initial value), `scaledSum` and `weightedSum` (the two arrangements below),
  `weightedSum_eq_scaledSum` (they agree on finite rows), `rmax_real`, `coe_sum` (the coercion of a finite real sum),
  `sum_mul_finite` (a finite sum of products of finite extended reals is finite), and the binary32 patterns of `-∞`
  and `1.0` as the extended reals they denote.

  A row of scores `s n` (n < N) and a column of values `β n`.  With `M` the row's maximum taken from `-∞`,
  `e n = exp (s n - M)` and `l = ∑ e n`, one program normalises the weights first and then sums,
  `∑ (e n / l) · β n`, the other sums first and scales the sum by the reciprocal, `(∑ e n · β n) · (1 / l)`.
  When every score and every value is a real number the maximum is a real, every `e n` is a positive real, `l` is a
  positive real, and the two are the same real number: the factor `1 / l` moves across the finite sum.
  (At an infinite score or value the distributive law fails on the extended reals; finiteness is used.)
-/
import Idealize.ShloMosaic.PureOps.Ideal
import Idealize.ShloMosaic.PureOps.Ideal.Laws
import Mathlib.Algebra.BigOperators.Ring.Finset
import Mathlib.Algebra.Order.BigOperators.Ring.Finset
import Mathlib.Tactic.Ring
import Mathlib.Tactic.FieldSimp

noncomputable section

namespace Cert.LibSoftmax

open Idealize.ShloMosaic
open scoped BigOperators

variable {N : ℕ}

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row's maximum, folded from the initial value `b`. -/
def rmax (b : EReal) (s : Fin N → EReal) : EReal := (Finset.univ : Finset (Fin N)).fold max b s

/-- Sum first, then scale by the reciprocal of the normaliser: `(∑ e n · β n) · (one / ∑ e n)`. -/
def scaledSum (b one : EReal) (s β : Fin N → EReal) : EReal :=
  (∑ n, Ideal.exp (s n - rmax b s) * β n) * Ideal.div one (∑ n, Ideal.exp (s n - rmax b s))

/-- Normalise first, then sum: `∑ (e n / (z + ∑ e n)) · β n`, the maximum joined once more with its initial value. -/
def weightedSum (b z : EReal) (s β : Fin N → EReal) : EReal :=
  ∑ n, Ideal.div (Ideal.exp (s n - max b (rmax b s))) (z + ∑ n', Ideal.exp (s n' - max b (rmax b s))) * β n

/-- The maximum from `-∞` of a nonempty row of reals is a real. -/
theorem rmax_real (hN : 0 < N) (σ : Fin N → ℝ) : ∃ μ : ℝ, rmax ⊥ (fun n => (σ n : EReal)) = (μ : EReal) := by
  have hlt : rmax ⊥ (fun n => (σ n : EReal)) < ⊤ := by
    unfold rmax
    rw [Finset.fold_max_lt]
    exact ⟨bot_lt_top, fun n _ => EReal.coe_lt_top _⟩
  have hgt : ⊥ < rmax ⊥ (fun n => (σ n : EReal)) := by
    refine lt_of_lt_of_le (EReal.bot_lt_coe (σ ⟨0, hN⟩)) ?_
    unfold rmax
    rw [Finset.le_fold_max]
    exact Or.inr ⟨⟨0, hN⟩, Finset.mem_univ _, le_refl _⟩
  exact ⟨(rmax ⊥ (fun n => (σ n : EReal))).toReal, (EReal.coe_toReal hlt.ne hgt.ne').symm⟩

/-- THE LAW, on real witnesses: normalising the weights before the sum or scaling the sum afterwards is the same. -/
theorem weightedSum_eq_scaledSum_coe (hN : 0 < N) (σ β : Fin N → ℝ) :
    weightedSum ⊥ 0 (fun n => (σ n : EReal)) (fun n => (β n : EReal))
      = scaledSum ⊥ 1 (fun n => (σ n : EReal)) (fun n => (β n : EReal)) := by
  obtain ⟨μ, hμ⟩ := rmax_real hN σ
  unfold weightedSum scaledSum
  rw [max_eq_right bot_le, hμ, zero_add]
  simp only [← EReal.coe_sub, Ideal.exp_coe]
  have hl : 0 < ∑ n, Real.exp (σ n - μ) :=
    Finset.sum_pos (fun n _ => Real.exp_pos _) ⟨⟨0, hN⟩, Finset.mem_univ _⟩
  rw [← coe_sum]
  simp only [Ideal.div_coe hl.ne', ← EReal.coe_mul]
  rw [← coe_sum, ← coe_sum, ← EReal.coe_one, ← EReal.coe_mul, ← EReal.coe_mul, Finset.sum_mul]
  congr 1
  refine Finset.sum_congr rfl fun n _ => ?_
  ring

/-- THE LAW on extended reals that are all finite. -/
theorem weightedSum_eq_scaledSum (hN : 0 < N) (s β : Fin N → EReal)
    (hs : ∀ n, s n ≠ ⊤ ∧ s n ≠ ⊥) (hβ : ∀ n, β n ≠ ⊤ ∧ β n ≠ ⊥) :
    weightedSum ⊥ 0 s β = scaledSum ⊥ 1 s β := by
  obtain ⟨σ, rfl⟩ : ∃ σ : Fin N → ℝ, s = fun n => (σ n : EReal) :=
    ⟨fun n => (s n).toReal, funext fun n => (EReal.coe_toReal (hs n).1 (hs n).2).symm⟩
  obtain ⟨β', rfl⟩ : ∃ β' : Fin N → ℝ, β = fun n => (β' n : EReal) :=
    ⟨fun n => (β n).toReal, funext fun n => (EReal.coe_toReal (hβ n).1 (hβ n).2).symm⟩
  exact weightedSum_eq_scaledSum_coe hN σ β'

/-- A finite sum of products of finite extended reals is finite. -/
theorem sum_mul_finite {K : ℕ} (x y : Fin K → EReal) (hx : ∀ k, x k ≠ ⊤ ∧ x k ≠ ⊥) (hy : ∀ k, y k ≠ ⊤ ∧ y k ≠ ⊥) :
    (∑ k, x k * y k) ≠ ⊤ ∧ (∑ k, x k * y k) ≠ ⊥ := by
  obtain ⟨x', rfl⟩ : ∃ x' : Fin K → ℝ, x = fun n => (x' n : EReal) :=
    ⟨fun n => (x n).toReal, funext fun n => (EReal.coe_toReal (hx n).1 (hx n).2).symm⟩
  obtain ⟨y', rfl⟩ : ∃ y' : Fin K → ℝ, y = fun n => (y' n : EReal) :=
    ⟨fun n => (y n).toReal, funext fun n => (EReal.coe_toReal (hy n).1 (hy n).2).symm⟩
  simp only [← EReal.coe_mul]
  rw [← coe_sum]
  exact ⟨EReal.coe_ne_top _, EReal.coe_ne_bot _⟩

/-- The binary32 pattern of `-∞` denotes the bottom of the extended reals. -/
theorem ofBits_neg_inf : Ideal.ofBits .f32 0xFF800000#32 = ⊥ := by
  simp [Ideal.ofBits, Ideal.ieee]

/-- The binary32 pattern of `1.0` denotes `1`. -/
theorem ofBits_one : Ideal.ofBits .f32 0x3F800000#32 = 1 :=
  IdealRules.sign_bit.ideal_onePat .f32

end Cert.LibSoftmax

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.BodyOps.lean ====
/-
  The kernel body's four non-pointwise operations read at an index, at the ideal values: the score product
  [512,128] × [128,4096] and the output product [512,4096] × [4096,512] as sums over the contracted coordinate, the row
  maximum as the fold of `max` over the row's 4096 entries, and the row sum as the sum over them.
-/
import proofs.«101623_j45904610460141_2_alg».proof.Proof.Gen.KernelIdeal
import proofs.«101623_j45904610460141_2_alg».proof.Proof.LibSoftmax
import proofs.«101623_j45904610460141_2_alg».proof.Proof.LibDot
import Idealize.ShloMosaic.PureOps.Ideal.Laws
import Idealize.ShloMosaic.Lib.ValueIdx

noncomputable section

namespace Cert.KernelIdeal.Body

open Cert.KernelIdeal Idealize.ShloMosaic Idealize.ShloMosaic.ValueIdx
open Facts₀ Facts

/-! ## The score product: the operand indices at output (y, n) and contraction coordinate k are (y, k) and (k, n) -/

theorem score_lhs_0 (i : S512x4096.Idx) (q : dot_S512x128_S128x4096_S512x4096_1_0_0_1_n_n.contr.Idx) : (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem score_lhs_1 (i : S512x4096.Idx) (q : dot_S512x128_S128x4096_S512x4096_1_0_0_1_n_n.contr.Idx) : (dot_S512x128_S128x4096_S512x4096_1_0_0_1_n_n.lhsIdx i q 1).val = (q ⟨0, by decide⟩).val :=
  dot_S512x128_S128x4096_S512x4096_1_0_0_1_n_n.lhsIdx_val_of_single rfl i q
theorem score_rhs_0 (i : S512x4096.Idx) (q : dot_S512x128_S128x4096_S512x4096_1_0_0_1_n_n.contr.Idx) : (dot_S512x128_S128x4096_S512x4096_1_0_0_1_n_n.rhsIdx i q 0).val = (q ⟨0, by decide⟩).val :=
  dot_S512x128_S128x4096_S512x4096_1_0_0_1_n_n.rhsIdx_val_of_single rfl i q
theorem score_rhs_1 (i : S512x4096.Idx) (q : dot_S512x128_S128x4096_S512x4096_1_0_0_1_n_n.contr.Idx) : (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

theorem score_lhs (y : Fin 512) (c : Fin 4096) (k : Fin 128) :
    dot_S512x128_S128x4096_S512x4096_1_0_0_1_n_n.lhsIdx (ix2 y c) ((contrEquiv1 dot_S512x128_S128x4096_S512x4096_1_0_0_1_n_n 128 rfl rfl).symm k) = ix2 y k := by
  have hk := contrEquiv1_symm_val dot_S512x128_S128x4096_S512x4096_1_0_0_1_n_n 128 rfl rfl k
  refine funext fun a => Fin.ext ?_
  match a with
  | ⟨0, _⟩ => exact score_lhs_0 _ _
  | ⟨1, _⟩ => exact (score_lhs_1 _ _).trans hk

theorem score_rhs (y : Fin 512) (c : Fin 4096) (k : Fin 128) :
    dot_S512x128_S128x4096_S512x4096_1_0_0_1_n_n.rhsIdx (ix2 y c) ((contrEquiv1 dot_S512x128_S128x4096_S512x4096_1_0_0_1_n_n 128 rfl rfl).symm k) = ix2 k c := by
  have hk := contrEquiv1_symm_val dot_S512x128_S128x4096_S512x4096_1_0_0_1_n_n 128 rfl rfl k
  refine funext fun a => Fin.ext ?_
  match a with
  | ⟨0, _⟩ => exact (score_rhs_0 _ _).trans hk
  | ⟨1, _⟩ => exact score_rhs_1 _ _

/-- The score product into a zero accumulator, at row `y` and address `n`: the sum over the 128 address coordinates. -/
theorem score_apply (q : FVec Ideal S512x128 .bf16) (k : FVec Ideal S128x4096 .bf16) (y : Fin 512) (n : Fin 4096) :
    matmul dot_S512x128_S128x4096_S512x4096_1_0_0_1_n_n none q k (constant S512x4096 .f32 0x00000000#32) (ix2 y n)
      = ∑ d : Fin 128, q (ix2 y d) * k (ix2 d n) := by
  simp only [matmul]
  rw [Ideal.matmul_constant_zero_apply]
  exact Cert.LibDot.sum_contr_eq _ 128 rfl rfl q k (ix2 y n) (fun d => ix2 y d) (fun d => ix2 d n)
    (score_lhs y n) (score_rhs y n)

/-! ## The output product: the operand indices at output (y, v) and contraction coordinate k are (y, k) and (k, v) -/

theorem out_lhs_0 (i : S512x512.Idx) (q : dot_S512x4096_S4096x512_S512x512_1_0_0_1_n_n.contr.Idx) : (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem out_lhs_1 (i : S512x512.Idx) (q : dot_S512x4096_S4096x512_S512x512_1_0_0_1_n_n.contr.Idx) : (dot_S512x4096_S4096x512_S512x512_1_0_0_1_n_n.lhsIdx i q 1).val = (q ⟨0, by decide⟩).val :=
  dot_S512x4096_S4096x512_S512x512_1_0_0_1_n_n.lhsIdx_val_of_single rfl i q
theorem out_rhs_0 (i : S512x512.Idx) (q : dot_S512x4096_S4096x512_S512x512_1_0_0_1_n_n.contr.Idx) : (dot_S512x4096_S4096x512_S512x512_1_0_0_1_n_n.rhsIdx i q 0).val = (q ⟨0, by decide⟩).val :=
  dot_S512x4096_S4096x512_S512x512_1_0_0_1_n_n.rhsIdx_val_of_single rfl i q
theorem out_rhs_1 (i : S512x512.Idx) (q : dot_S512x4096_S4096x512_S512x512_1_0_0_1_n_n.contr.Idx) : (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

theorem out_lhs (y : Fin 512) (c : Fin 512) (k : Fin 4096) :
    dot_S512x4096_S4096x512_S512x512_1_0_0_1_n_n.lhsIdx (ix2 y c) ((contrEquiv1 dot_S512x4096_S4096x512_S512x512_1_0_0_1_n_n 4096 rfl rfl).symm k) = ix2 y k := by
  have hk := contrEquiv1_symm_val dot_S512x4096_S4096x512_S512x512_1_0_0_1_n_n 4096 rfl rfl k
  refine funext fun a => Fin.ext ?_
  match a with
  | ⟨0, _⟩ => exact out_lhs_0 _ _
  | ⟨1, _⟩ => exact (out_lhs_1 _ _).trans hk

theorem out_rhs (y : Fin 512) (c : Fin 512) (k : Fin 4096) :
    dot_S512x4096_S4096x512_S512x512_1_0_0_1_n_n.rhsIdx (ix2 y c) ((contrEquiv1 dot_S512x4096_S4096x512_S512x512_1_0_0_1_n_n 4096 rfl rfl).symm k) = ix2 k c := by
  have hk := contrEquiv1_symm_val dot_S512x4096_S4096x512_S512x512_1_0_0_1_n_n 4096 rfl rfl k
  refine funext fun a => Fin.ext ?_
  match a with
  | ⟨0, _⟩ => exact (out_rhs_0 _ _).trans hk
  | ⟨1, _⟩ => exact out_rhs_1 _ _

/-- The output product into a zero accumulator, at row `y` and column `v`: the sum over the 4096 addresses. -/
theorem out_apply (p : FVec Ideal S512x4096 .bf16) (b : FVec Ideal S4096x512 .bf16) (y : Fin 512) (v : Fin 512) :
    matmul dot_S512x4096_S4096x512_S512x512_1_0_0_1_n_n none p b (constant S512x512 .f32 0x00000000#32) (ix2 y v)
      = ∑ n : Fin 4096, p (ix2 y n) * b (ix2 n v) := by
  simp only [matmul]
  rw [Ideal.matmul_constant_zero_apply]
  exact Cert.LibDot.sum_contr_eq _ 4096 rfl rfl p b (ix2 y v) (fun n => ix2 y n) (fun n => ix2 n v)
    (out_lhs y v) (out_rhs y v)

/-! ## The row reductions -/

/-- Row `y` of a [512, 4096] matrix with the column `n` put back in: the entry (y, n). -/
theorem lift_row (h : S512x4096.Reduces [1] S512) (y : Fin 512) (n : Fin 4096) : h.lift (ix1 y) n = ix2 y n :=
  funext fun a => Fin.ext (by match a with | ⟨0, _⟩ => rfl | ⟨1, _⟩ => rfl)

/-- The row maximum from `-∞`, at row `y`: the fold of `max` over the row. -/
theorem rowMax_apply (x : FVec Ideal S512x4096 .f32) (hφ : FKind.Formats .f32)
    (hacc : (0xFF800000#32 : BitVec 32) = 0xFF800000#32) (y : Fin 512) :
    multiReduction .maximumf [1] S512 x 0xFF800000#32 Facts₀.reduces_S512x4096_S512 hφ hacc (ix1 y)
      = Cert.LibSoftmax.rmax (Ideal.ofBits .f32 0xFF800000#32) (fun n : Fin 4096 => x (ix2 y n)) := by
  refine (Ideal.multiReduction_maximumf_single x 0xFF800000#32 Facts₀.reduces_S512x4096_S512 hφ hacc (ix1 y)).trans ?_
  unfold Cert.LibSoftmax.rmax
  refine congrArg (Finset.fold max _ · Finset.univ) (funext fun n => ?_)
  exact congrArg x (lift_row _ y n)

/-- The row sum, at row `y`: the sum over the row. -/
theorem rowSum_apply (x : FVec Ideal S512x4096 .f32) (hφ : FKind.Formats .f32)
    (hacc : (0x00000000#32 : BitVec 32) = 0x00000000#32) (y : Fin 512) :
    multiReduction .add [1] S512 x 0x00000000#32 Facts₀.reduces_S512x4096_S512 hφ hacc (ix1 y)
      = ∑ n : Fin 4096, x (ix2 y n) := by
  refine (Ideal.multiReduction_add_single x 0x00000000#32 Facts₀.reduces_S512x4096_S512 hφ hacc (ix1 y)).trans ?_
  exact Finset.sum_congr rfl fun n _ => congrArg x (lift_row _ y n)

end Cert.KernelIdeal.Body

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.BodyValue.lean ====
/-
  The kernel body's result read at an index.  For a block of 512 query rows `x0` ([1, 512, 128]), the transposed
  address table `x1` ([128, 4096]) and the bank `x2` ([4096, 512]), the entry (0, y, v) the body stores is the
  attention of query row `y` in the arrangement "sum, then scale": the scores of row `y` are its inner products with the
  4096 columns of `x1`; their maximum is subtracted, the exponentials `e n` are summed to the normaliser, and the
  product of the row of `e` with column `v` of the bank is multiplied by `1 / ∑ e n`.  (Changes of float format are
  the identity on the extended reals.)
-/
import proofs.«101623_j45904610460141_2_alg».proof.Proof.Gen.KernelIdeal.Skeleton
import proofs.«101623_j45904610460141_2_alg».proof.Proof.BodyOps
import proofs.«101623_j45904610460141_2_alg».proof.Proof.LibLayout
import proofs.«101623_j45904610460141_2_alg».proof.Proof.LibLayoutB
import Idealize.ShloMosaic.Lib.Pipeline.Value

noncomputable section

namespace Cert.KernelIdeal.Body

open Cert.KernelIdeal Idealize.ShloMosaic Idealize.ShloMosaic.ValueIdx Cert.LibSoftmax
open Facts₀ Facts

/-- The block of query rows viewed as a [512, 128] matrix and narrowed: entry (y, d) is the block's (0, y, d). -/
theorem query_apply (x0 : Vec Ideal S1x512x128 .f32) (y : Fin 512) (d : Fin 128) :
    (truncf (F := Ideal) .bf16 (shapeCast S512x128 x0 Facts₀.shapeCasts_S1x512x128_S512x128 : FVec Ideal S512x128 .f32)
        Facts₀.bitsLt_bf16_f32 : FVec Ideal S512x128 .bf16) (ix2 y d)
      = (x0 (ix3 (0 : Fin 1) y d) : EReal) := by
  rw [truncf_apply]
  exact Cert.LibLayoutB.shapeCast_abc_mc_apply x0 _ (0 : Fin 1) y d y (by show y.val = 0 * 512 + y.val; omega)

/-- The unnormalised weight at (y, n) of a score matrix `S`: the exponential of the score less its row's maximum
    (the maximum made a column and spread back over the row). -/
theorem weight_apply (S : FVec Ideal S512x4096 .f32) (hφ : FKind.Formats .f32)
    (hacc : (0xFF800000#32 : BitVec 32) = 0xFF800000#32) (y : Fin 512) (n : Fin 4096) :
    exp (subf S (broadcastTo S512x4096 (shapeCast S512x1
        (multiReduction .maximumf [1] S512 S 0xFF800000#32 Facts₀.reduces_S512x4096_S512 hφ hacc)
        Facts₀.shapeCasts_S512_S512x1) Facts₀.broadcasts_S512x1_S512x4096)) (ix2 y n)
      = Ideal.exp (S (ix2 y n) - rmax (Ideal.ofBits .f32 0xFF800000#32) (fun n' : Fin 4096 => S (ix2 y n'))) := by
  show FloatOps.exp (subf S _ (ix2 y n)) = _
  rw [subf_apply, Cert.LibLayout.broadcastTo_a1_ab_apply, Cert.LibLayout.shapeCast_a_a1_apply, rowMax_apply]
  rfl

/-- THE BODY'S RESULT at (0, y, v). -/
theorem pay_apply (x0 : Vec Ideal S1x512x128 .f32) (x1 : Vec Ideal S128x4096 .bf16) (x2 : Vec Ideal S4096x512 .bf16)
    (y v : Fin 512) :
    Gen.k0_pay1 x0 x1 x2 (ix3 (0 : Fin 1) y v)
      = scaledSum (Ideal.ofBits .f32 0xFF800000#32) (Ideal.ofBits .f32 0x3F800000#32)
          (fun n : Fin 4096 => ∑ d : Fin 128, x0 (ix3 (0 : Fin 1) y d) * x1 (ix2 d n))
          (fun n : Fin 4096 => x2 (ix2 n v)) := by
  unfold Gen.k0_pay1
  dsimp only
  rw [Cert.LibLayoutB.shapeCast_mc_abc_apply _ _ (0 : Fin 1) y v y (by show y.val = 0 * 512 + y.val; omega)]
  rw [mulf_apply, out_apply, Cert.LibLayout.broadcastTo_a1_ab_apply, divf_apply, broadcast_apply,
    Cert.LibLayout.shapeCast_a_a1_apply, rowSum_apply]
  unfold scaledSum
  simp only [truncf_apply, shapeCast_self]
  have hs : ∀ n : Fin 4096,
      matmul dot_S512x128_S128x4096_S512x4096_1_0_0_1_n_n none
        (truncf (F := Ideal) .bf16 (shapeCast S512x128 x0 Facts₀.shapeCasts_S1x512x128_S512x128 : FVec Ideal S512x128 .f32)
          Facts₀.bitsLt_bf16_f32 : FVec Ideal S512x128 .bf16)
        x1 (constant S512x4096 .f32 0x00000000#32) (ix2 y n)
      = ∑ d : Fin 128, x0 (ix3 (0 : Fin 1) y d) * x1 (ix2 d n) := fun n =>
    (score_apply _ _ y n).trans (Finset.sum_congr rfl fun d _ => congrArg (· * _) (query_apply x0 y d))
  refine congrArg₂ (· * ·) (Finset.sum_congr rfl fun n _ => congrArg (· * _) ?_)
    (congrArg (Ideal.div _) (Finset.sum_congr rfl fun n _ => ?_))
  · refine (weight_apply _ _ _ y n).trans ?_
    simp only [hs]
  · refine (weight_apply _ _ _ y n).trans ?_
    simp only [hs]

end Cert.KernelIdeal.Body

end
-- ==== Proof.Attend.lean ====
/-
  The attention read as one function of the three argument arrays, index by index.

  `selector` is [8, 2048, 128], `address_space` is [4096, 128], `param_bank` is [4096, 512].  The score of query row
  (b, r) against address n is the inner product over the 128 address coordinates.  The output entry (b, r, v) is the
  softmax-weighted sum over the 4096 addresses of the bank's column v, the softmax taken over row (b, r)'s scores.
  It is stated in two arrangements — the weights normalised before the sum, or the sum scaled afterwards by the
  reciprocal of the normaliser — and the two agree when every input is a real number.
-/
import proofs.«101623_j45904610460141_2_alg».proof.Proof.LibSoftmax
import Idealize.ShloMosaic.Lib.ValueIdx

noncomputable section

namespace Cert.Attend

open Idealize.ShloMosaic Idealize.ShloMosaic.ValueIdx Cert.LibSoftmax

/-- The score of query row (b, r) against address n: the inner product over the address coordinates. -/
def sc (sel : (⟨3, ![8, 2048, 128]⟩ : Shape).Idx → EReal) (addr : (⟨2, ![4096, 128]⟩ : Shape).Idx → EReal)
    (b : Fin 8) (r : Fin 2048) (n : Fin 4096) : EReal :=
  ∑ d : Fin 128, sel (ix3 b r d) * addr (ix2 n d)

/-- Sum first, scale afterwards: `(∑ e n · bank (n, v)) · (1 / ∑ e n)` with `e n = exp (score n - max)`. -/
def scaled (sel : (⟨3, ![8, 2048, 128]⟩ : Shape).Idx → EReal) (bank : (⟨2, ![4096, 512]⟩ : Shape).Idx → EReal)
    (addr : (⟨2, ![4096, 128]⟩ : Shape).Idx → EReal) : (⟨3, ![8, 2048, 512]⟩ : Shape).Idx → EReal := fun i =>
  scaledSum (Ideal.ofBits .f32 0xFF800000#32) (Ideal.ofBits .f32 0x3F800000#32) (sc sel addr (i 0) (i 1))
    (fun n => bank (ix2 n (i 2)))

/-- Normalise first, sum afterwards: `∑ (e n / (0 + ∑ e n)) · bank (n, v)`. -/
def weighted (sel : (⟨3, ![8, 2048, 128]⟩ : Shape).Idx → EReal) (bank : (⟨2, ![4096, 512]⟩ : Shape).Idx → EReal)
    (addr : (⟨2, ![4096, 128]⟩ : Shape).Idx → EReal) : (⟨3, ![8, 2048, 512]⟩ : Shape).Idx → EReal := fun i =>
  weightedSum (Ideal.ofBits .f32 0xFF800000#32) (Ideal.ofBits .f32 0x00000000#32) (sc sel addr (i 0) (i 1))
    (fun n => bank (ix2 n (i 2)))

/-- On finite inputs the two arrangements are one function: every score is a finite sum of products of reals, so the
    row law applies to every row. -/
theorem weighted_eq_scaled (sel : (⟨3, ![8, 2048, 128]⟩ : Shape).Idx → EReal) (bank : (⟨2, ![4096, 512]⟩ : Shape).Idx → EReal)
    (addr : (⟨2, ![4096, 128]⟩ : Shape).Idx → EReal)
    (hsel : ∀ i, sel i ≠ ⊤ ∧ sel i ≠ ⊥) (hbank : ∀ i, bank i ≠ ⊤ ∧ bank i ≠ ⊥) (haddr : ∀ i, addr i ≠ ⊤ ∧ addr i ≠ ⊥) :
    weighted sel bank addr = scaled sel bank addr := by
  funext i
  unfold weighted scaled
  rw [ofBits_neg_inf, ofBits_one, Ideal.ofBits_zero_f32]
  exact weightedSum_eq_scaledSum (by decide) _ _
    (fun n => sum_mul_finite _ _ (fun d => hsel _) (fun d => haddr _)) (fun n => hbank _)

end Cert.Attend

end
-- ==== Proof.KernelValue.lean ====
/-
  From blocks to the array: what the kernel's result array holds after the run.

  The grid has 8 × 4 points; point (b, q) reads rows 512·q … 512·q + 511 of batch b of `selector`, the whole transposed
  address table and the whole bank (both written by host operations before the region: the transpose of `address_space`
  and a change of float format of each, the identity on the extended reals), and writes rows 512·q … 512·q + 511 of
  batch b of the result.  So the block point t writes is block t of ONE function of the argument arrays — the attention in
  the arrangement "sum, then scale" — and the 32 blocks tile the result array.
-/
import proofs.«101623_j45904610460141_2_alg».proof.Proof.Gen.KernelIdeal.Value
import proofs.«101623_j45904610460141_2_alg».proof.Proof.BodyValue
import proofs.«101623_j45904610460141_2_alg».proof.Proof.Attend
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Facts₀ Facts

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the argument arrays as launched. -/
abbrev result (c : Dev nD) : Buf (Elt Ideal) ((c : Thread nD τ).loc main_v3) :=
  Cert.Attend.scaled (m ((c : Thread nD τ).loc main_arg0)) (m ((c : Thread nD τ).loc main_arg1)) (m ((c : Thread nD τ).loc main_arg2))

/-! ## The arrays the host operations wrote before the region -/

/-- The address table the region stages: the transpose of `address_space`, narrowed. -/
theorem V_addrT (c : Dev nD) : (V m c main_v1 : S128x4096.Idx → EReal)
    = truncf (F := Ideal) .bf16 (transpose S128x4096 [1, 0] (m ((c : Thread nD τ).loc main_arg2)) Facts₀.transposes_S4096x128_S128x4096_1_0 : FVec Ideal S128x4096 .f32) Facts₀.bitsLt_bf16_f32 := by
  dsimp only [Gen.V, Gen.hostOps0]; after_results; try rfl

/-- The bank the region stages: `param_bank`, narrowed. -/
theorem V_bank (c : Dev nD) : (V m c main_v2 : S4096x512.Idx → EReal)
    = truncf (F := Ideal) .bf16 (m ((c : Thread nD τ).loc main_arg1) : FVec Ideal S4096x512 .f32) Facts₀.bitsLt_bf16_f32 := by
  dsimp only [Gen.V, Gen.hostOps0]; after_results; try rfl

/-- Entry (d, n) of the staged address table is entry (n, d) of `address_space`. -/
theorem V_addrT_apply (c : Dev nD) (k : S128x4096.Idx) (d : Fin 128) (n : Fin 4096) (h0 : (k 0).val = d.val) (h1 : (k 1).val = n.val) :
    (V m c main_v1 : S128x4096.Idx → EReal) k = (m ((c : Thread nD τ).loc main_arg2) : S4096x128.Idx → EReal) (ix2 n d) := by
  rw [V_addrT, truncf_apply]
  exact transpose_apply _ _ _ k (ix2 n d) fun b => by
    match b with
    | ⟨0, _⟩ => exact h0.symm
    | ⟨1, _⟩ => exact h1.symm

/-- Entry (n, v) of the staged bank is entry (n, v) of `param_bank`. -/
theorem V_bank_apply (c : Dev nD) (k : S4096x512.Idx) (n : Fin 4096) (v : Fin 512) (h0 : (k 0).val = n.val) (h1 : (k 1).val = v.val) :
    (V m c main_v2 : S4096x512.Idx → EReal) k = (m ((c : Thread nD τ).loc main_arg1) : S4096x512.Idx → EReal) (ix2 n v) := by
  rw [V_bank, truncf_apply]
  exact congrArg _ (funext fun a => Fin.ext (by match a with | ⟨0, _⟩ => exact h0 | ⟨1, _⟩ => exact h1))

/-! ## The index maps over the grid -/

/-- The printed index maps, decided over the 32 points: the query window moves with the output window on the batch
    and row-block axes, the two resident windows stay at block (0, 0), and the output's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 8 ∧ win0_3.index t (1 : Fin 3) < 4 :=
  (by decide +kernel : ∀ t : Fin grid0.N, _)

/-- Every (batch, row block) is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## One block -/

/-- The body's result on blocks that are the argument arrays' entries where the output block's rectangle says, at an
    entry `j` of the block that sits at the array index `i`: the attention at `i`. -/
theorem blk_value (x0 : Vec Ideal S1x512x128 .f32) (x1 : Vec Ideal S128x4096 .bf16) (x2 : Vec Ideal S4096x512 .bf16)
    (sel : S8x2048x128.Idx → EReal) (bank : S4096x512.Idx → EReal) (addr : S4096x128.Idx → EReal)
    (j : S1x512x512.Idx) (i : S8x2048x512.Idx)
    (h0 : ∀ (y : Fin 512) (d : Fin 128), y.val = (j 1).val → x0 (ix3 (0 : Fin 1) y d) = sel (ix3 (i 0) (i 1) d))
    (h1 : ∀ (d : Fin 128) (n : Fin 4096), x1 (ix2 d n) = addr (ix2 n d))
    (h2 : ∀ (n : Fin 4096) (v : Fin 512), x2 (ix2 n v) = bank (ix2 n v))
    (hi2 : (i 2).val = (j 2).val) :
    Gen.k0_pay1 x0 x1 x2 j = Cert.Attend.scaled sel bank addr i := by
  obtain ⟨u, y, v, rfl⟩ : ∃ (u : Fin 1) (y : Fin 512) (v : Fin 512), j = ix3 u y v := ⟨j 0, j 1, j 2, eq_ix3 j⟩
  obtain rfl : u = 0 := Subsingleton.elim _ _
  obtain ⟨b, r, v', rfl⟩ : ∃ (b : Fin 8) (r : Fin 2048) (v' : Fin 512), i = ix3 b r v' := ⟨i 0, i 1, i 2, eq_ix3 i⟩
  obtain rfl : v' = v := Fin.ext hi2
  have h0' : ∀ d : Fin 128, x0 (ix3 (0 : Fin 1) y d) = sel (ix3 b r d) := fun d => h0 y d rfl
  rw [Cert.KernelIdeal.Body.pay_apply]
  show Cert.LibSoftmax.scaledSum _ _ _ _ = Cert.LibSoftmax.scaledSum _ _ (Cert.Attend.sc sel addr b r) (fun n => bank (ix2 n v'))
  unfold Cert.Attend.sc
  simp only [h0', h1, h2]

/-- WHAT POINT `t` WRITES BACK is block `t` of the attention of the argument arrays. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz3]
  simp only [View.ld_unit_zero (S := S1x512x128) hz3, View.ld_unit_zero (S := S128x4096) hz2, View.ld_unit_zero (S := S4096x512) hz2]
  obtain ⟨e0, e1, e2, e3, e4, e5, e6, e7, e8, e9⟩ := idx_facts t
  funext j
  show Gen.k0_pay1 (iblk m c 0 t) (iblk m c 1 t) (iblk m c 2 t) j = result m c (((cfg0.win 3).blk t).view.emb j)
  refine blk_value _ _ _ _ _ _ j _ ?_ ?_ ?_ ?_
  · intro y d hy
    unfold iblk
    rw [View.read_apply]
    show V m c main_arg0 _ = _
    rw [V_main_arg0]
    refine congrArg _ (funext fun a => Fin.ext ?_)
    have hj0 : (j 0).val < 1 := (j 0).isLt
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * y.val = win0_3.index t (1 : Fin 3) * 512 + 1 * (j 1).val; omega
    | ⟨2, _⟩ => show win0_0.index t (2 : Fin 3) * 128 + 1 * d.val = d.val; omega
  · intro d n
    unfold iblk
    rw [View.read_apply]
    refine V_addrT_apply m c _ d n ?_ ?_
    · show win0_1.index t (0 : Fin 2) * 128 + 1 * d.val = d.val; omega
    · show win0_1.index t (1 : Fin 2) * 4096 + 1 * n.val = n.val; omega
  · intro n v
    unfold iblk
    rw [View.read_apply]
    refine V_bank_apply m c _ n v ?_ ?_
    · show win0_2.index t (0 : Fin 2) * 4096 + 1 * n.val = n.val; omega
    · show win0_2.index t (1 : Fin 2) * 512 + 1 * v.val = v.val; omega
  · show win0_3.index t (2 : Fin 3) * 512 + 1 * (j 2).val = (j 2).val; omega

/-! ## The cover -/

/-- An index of the result array is in point `t`'s block iff each coordinate is in the block's range on its axis. -/
theorem mem_blk (t : Fin cfg0.N) (i : S8x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v3).slice (win0_3.rect t)).set ↔ _
  rw [View.set_slice_whole, Rect.mem_set_unit]
  exact Iff.rfl

/-- Every index of the result array is in some point's block: batch `i 0`, row block `(i 1) / 512`. -/
theorem cover (i : S8x2048x512.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE ARRAY after the run: the attention of the argument arrays. -/
theorem final (c : Dev nD) : (dats m 0 c).arrAt 3 cfg0.N = result m c :=
  (dats m 0 c).arrAt_eq_of_cover 3 (result m c) (fun t _ => flushed_eq m c t) (cover)

/-- The kernel's run, read: the result array at the attention of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result read at an index: stage by stage through its sixteen host operations, the entry (b, r, v) of
  its result is the softmax-weighted sum in the arrangement "normalise the weights, then sum" — the scores by the
  first `dot_general`, the row maximum by the host's max-reduce (a fold of `max` over the row, joined once more with
  `-∞`), the exponentials, the row sum started from `0.0`, the quotient, and the second `dot_general`.
-/
import proofs.«101623_j45904610460141_2_alg».proof.Proof.Gen.ReferenceIdeal.Read
import proofs.«101623_j45904610460141_2_alg».proof.Proof.Attend
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Read Idealize.ShloMosaic Idealize.ShloMosaic.ValueIdx
open Cert.LibSoftmax Cert.Attend
open Facts₀ Facts

/-- The scores: the first product at (b, r, n) is the inner product of query row (b, r) with address n. -/
theorem v0_at (x0 : (⟨S8x2048x128, .f32⟩ : BufTy).Contents (Elt Ideal)) (x2 : (⟨S4096x128, .f32⟩ : BufTy).Contents (Elt Ideal)) (b : Fin 8) (r : Fin 2048) (n : Fin 4096) :
    val_main_v0 (F := Ideal) x0 x2 (ix3 b r n) = sc x0 x2 b r n := by
  rw [val_main_v0_apply]
  unfold sc
  refine Finset.sum_congr rfl fun d _ => ?_
  have el : lidx_main_v0 (ix3 b r n) d = ix3 b r d := funext fun a => Fin.ext (by match a with | ⟨0, _⟩ => rfl | ⟨1, _⟩ => rfl | ⟨2, _⟩ => rfl)
  have er : ridx_main_v0 (ix3 b r n) d = ix2 n d := funext fun a => Fin.ext (by match a with | ⟨0, _⟩ => rfl | ⟨1, _⟩ => rfl)
  rw [el, er]

/-- Row (b, r) of a [8, 2048, 4096] array with the address `n` put back in: the entry (b, r, n). -/
theorem lift_row (h : S8x2048x4096.Reduces [2] S8x2048) (b : Fin 8) (r : Fin 2048) (n : Fin 4096) :
    h.lift (ix2 b r) n = ix3 b r n := funext fun a => Fin.ext (by match a with | ⟨0, _⟩ => rfl | ⟨1, _⟩ => rfl | ⟨2, _⟩ => rfl)

/-- The host's max-reduce over the addresses, at row (b, r): the fold of `max` from `-∞` over the row's scores. -/
theorem v1_at (x0 : (⟨S8x2048x128, .f32⟩ : BufTy).Contents (Elt Ideal)) (x2 : (⟨S4096x128, .f32⟩ : BufTy).Contents (Elt Ideal)) (b : Fin 8) (r : Fin 2048) :
    val_main_v1 (F := Ideal) x0 x2 (ix2 b r) = rmax (Ideal.ofBits .f32 0xFF800000#32) (sc x0 x2 b r) := by
  have hr : S8x2048x4096.Reduces [2] S8x2048 := by decide
  unfold val_main_v1
  rw [Host.reduce_eq_fold_single FloatOps.maximumf _ _ reducesTo_S8x2048x4096_S8x2048_d2 hr h_S_]
  have hf : (val_main_v0 (F := Ideal) x0 x2 ∘ hr.lift (ix2 b r)) = sc x0 x2 b r :=
    funext fun n => (congrArg (val_main_v0 (F := Ideal) x0 x2) (lift_row hr b r n)).trans (v0_at x0 x2 b r n)
  rw [hf]
  rfl

/-- The maximum the exponent subtracts, at (b, r, n): the row maximum joined once more with `-∞`. -/
theorem v5_at (x0 : (⟨S8x2048x128, .f32⟩ : BufTy).Contents (Elt Ideal)) (x2 : (⟨S4096x128, .f32⟩ : BufTy).Contents (Elt Ideal)) (b : Fin 8) (r : Fin 2048) (n : Fin 4096) :
    val_main_v5 (F := Ideal) x0 x2 (ix3 b r n)
      = max (Ideal.ofBits .f32 0xFF800000#32) (rmax (Ideal.ofBits .f32 0xFF800000#32) (sc x0 x2 b r)) := by
  have e5 : idx_main_v5 (ix3 b r n) = ix3 b r (0 : Fin 1) := funext fun a => Fin.ext (by match a with | ⟨0, _⟩ => rfl | ⟨1, _⟩ => rfl | ⟨2, _⟩ => rfl)
  have e4 : idx_main_v4 (ix3 b r (0 : Fin 1)) = ix2 b r := funext fun a => Fin.ext (by match a with | ⟨0, _⟩ => rfl | ⟨1, _⟩ => rfl)
  rw [val_main_v5_apply, e5, val_main_v4_apply, e4, val_main_v3_apply, val_main_v2_apply, val_main_cst_0_apply, v1_at]
  rfl

/-- The unnormalised weight at (b, r, n): the exponential of the score less the maximum. -/
theorem v7_at (x0 : (⟨S8x2048x128, .f32⟩ : BufTy).Contents (Elt Ideal)) (x2 : (⟨S4096x128, .f32⟩ : BufTy).Contents (Elt Ideal)) (b : Fin 8) (r : Fin 2048) (n : Fin 4096) :
    val_main_v7 (F := Ideal) x0 x2 (ix3 b r n)
      = Ideal.exp (sc x0 x2 b r n
          - max (Ideal.ofBits .f32 0xFF800000#32) (rmax (Ideal.ofBits .f32 0xFF800000#32) (sc x0 x2 b r))) := by
  rw [val_main_v7_apply, val_main_v6_apply, v0_at, v5_at]
  rfl

/-- The normaliser at (b, r, n): `0.0` plus the sum of the row's unnormalised weights. -/
theorem v10_at (x0 : (⟨S8x2048x128, .f32⟩ : BufTy).Contents (Elt Ideal)) (x2 : (⟨S4096x128, .f32⟩ : BufTy).Contents (Elt Ideal)) (b : Fin 8) (r : Fin 2048) (n : Fin 4096) :
    val_main_v10 (F := Ideal) x0 x2 (ix3 b r n)
      = Ideal.ofBits .f32 0x00000000#32 + ∑ n' : Fin 4096, Ideal.exp (sc x0 x2 b r n'
          - max (Ideal.ofBits .f32 0xFF800000#32) (rmax (Ideal.ofBits .f32 0xFF800000#32) (sc x0 x2 b r))) := by
  have e10 : idx_main_v10 (ix3 b r n) = ix3 b r (0 : Fin 1) := funext fun a => Fin.ext (by match a with | ⟨0, _⟩ => rfl | ⟨1, _⟩ => rfl | ⟨2, _⟩ => rfl)
  have e9 : idx_main_v9 (ix3 b r (0 : Fin 1)) = ix2 b r := funext fun a => Fin.ext (by match a with | ⟨0, _⟩ => rfl | ⟨1, _⟩ => rfl)
  rw [val_main_v10_apply, e10, val_main_v9_apply, e9, val_main_v8_apply, val_main_cst_1_apply]
  refine congrArg (_ + ·) (Finset.sum_congr rfl fun n' _ => ?_)
  have e8 : idx_main_v8 (ix2 b r) n' = ix3 b r n' := funext fun a => Fin.ext (by match a with | ⟨0, _⟩ => rfl | ⟨1, _⟩ => rfl | ⟨2, _⟩ => rfl)
  rw [e8, v7_at]

/-- THE REFERENCE'S VALUE: its result array is the attention in the arrangement "normalise, then sum". -/
theorem result_eq (x0 : (⟨S8x2048x128, .f32⟩ : BufTy).Contents (Elt Ideal)) (x1 : (⟨S4096x512, .f32⟩ : BufTy).Contents (Elt Ideal)) (x2 : (⟨S4096x128, .f32⟩ : BufTy).Contents (Elt Ideal)) :
    val_main_v12 (F := Ideal) x0 x1 x2 = weighted x0 x1 x2 := by
  funext i
  obtain ⟨b, r, v, rfl⟩ : ∃ (b : Fin 8) (r : Fin 2048) (v : Fin 512), i = ix3 b r v := ⟨i 0, i 1, i 2, eq_ix3 i⟩
  rw [val_main_v12_apply]
  unfold weighted weightedSum
  refine Finset.sum_congr rfl fun n _ => ?_
  have el : lidx_main_v12 (ix3 b r v) n = ix3 b r n := funext fun a => Fin.ext (by match a with | ⟨0, _⟩ => rfl | ⟨1, _⟩ => rfl | ⟨2, _⟩ => rfl)
  have er : ridx_main_v12 (ix3 b r v) n = ix2 n v := funext fun a => Fin.ext (by match a with | ⟨0, _⟩ => rfl | ⟨1, _⟩ => rfl)
  rw [el, er, val_main_v11_apply, v7_at, v10_at]
  rfl

end Cert.ReferenceIdeal.RefValue

end
-- ==== Proof.Finite.lean ====
/-
  The precondition read back: `finite_inputs` holds `|x| < +∞` of every entry of each of the three argument arrays
  (three `jnp.all`s joined by `and`), and an extended real whose absolute value is below `+∞` is a real number.
-/
import proofs.«101623_j45904610460141_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton (⟨0, ![]⟩ : Shape).Idx := ⟨fun _ _ => funext fun d => d.elim0⟩

/-- The binary32 pattern of `+∞` denotes the top of the extended reals. -/
theorem ofBits_pos_inf : Ideal.ofBits .f32 0x7F800000#32 = ⊤ := by
  simp [Ideal.ofBits, Ideal.ieee]

/-- An extended real whose absolute value compares below `+∞` is neither infinity. -/
theorem finite_of_abs_lt (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hc
    have : Ideal.cmp .olt (max x (-x)) ⊤ = 0#1 := by simp [Ideal.cmp, hc]
    rw [this] at h
    exact absurd h (by decide)
  induction x using EReal.rec with
  | bot => simp at hlt
  | top => simp at hlt
  | coe r => exact ⟨EReal.coe_ne_top r, EReal.coe_ne_bot r⟩

/-- Under the precondition every entry of every argument array is a real number. -/
theorem of_pre (a0 : FVec Ideal Cert.Pre_finite_inputs.S8x2048x128 .f32) (a1 : FVec Ideal Cert.Pre_finite_inputs.S4096x512 .f32)
    (a2 : FVec Ideal Cert.Pre_finite_inputs.S4096x128 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => finite_of_abs_lt _ (Host.reduce_andi_all _ _ _ _ _ h0' i),
    fun i => finite_of_abs_lt _ (Host.reduce_andi_all _ _ _ _ _ h1 i),
    fun i => finite_of_abs_lt _ (Host.reduce_andi_all _ _ _ _ _ h2 i)⟩

end Cert.Finite

end
-- ==== Proof.lean ====
/-
  A soft address space: scores = selector · address_spaceᵀ, weights = softmax of the scores over the 4096 addresses,
  result = weights · param_bank.

  The kernel computes, per block of 512 query rows, the scores into a zero accumulator, the row maximum `M`, the
  unnormalised weights `e = exp (scores - M)`, their row sum `l`, the product `e · bank`, and scales each row of that
  product by `1 / l`.  The reference normalises first: `softmax = e / l` entry by entry (its maximum joined once more
  with `-∞`, its sum started from `0.0`), then multiplies by the bank.  On the extended reals a change of float format
  is the identity and both matrix products are plain finite sums, so entry (b, r, v) of the two results is
      (∑ₙ eₙ · bankₙᵥ) · (1 / l)      against      ∑ₙ (eₙ / l) · bankₙᵥ .
  These agree because every input is finite: the scores are then real, `M` is real, each `eₙ` is a positive real, `l` is
  a positive real, and the factor `1 / l` moves across the finite sum (the distributive law, which fails at infinities —
  this is where the precondition is used).

  The modules: the row law on the extended reals; the attention as one function of the three arrays in both
  arrangements and their equality on finite inputs; the reference's run read stage by stage as the "normalise, then sum"
  arrangement; the kernel body's result at an index as the "sum, then scale" arrangement; the 32 blocks the grid writes
  as the blocks of that one function, tiling the result array; the precondition read back as finiteness of every entry.
  Nothing in the kernel's text was rewritten for its reading at the ideal values, so the conjunct relating the two readings
  of the kernel is trivial.
-/
import proofs.«101623_j45904610460141_2_alg».proof.Defs
import proofs.«101623_j45904610460141_2_alg».proof.Proof.Gen.Kernel
import proofs.«101623_j45904610460141_2_alg».proof.Proof.Gen.Kernel.Skeleton
import proofs.«101623_j45904610460141_2_alg».proof.Proof.Gen.Kernel.Launch
import proofs.«101623_j45904610460141_2_alg».proof.Proof.Gen.Kernel.Points
import proofs.«101623_j45904610460141_2_alg».proof.Proof.Gen.Kernel.Frame
import proofs.«101623_j45904610460141_2_alg».proof.Proof.Gen.KernelIdeal
import proofs.«101623_j45904610460141_2_alg».proof.Proof.Gen.KernelIdeal.Skeleton
import proofs.«101623_j45904610460141_2_alg».proof.Proof.Gen.KernelIdeal.Launch
import proofs.«101623_j45904610460141_2_alg».proof.Proof.Gen.KernelIdeal.Points
import proofs.«101623_j45904610460141_2_alg».proof.Proof.Gen.KernelIdeal.Frame
import proofs.«101623_j45904610460141_2_alg».proof.Proof.Gen.ReferenceIdeal
import proofs.«101623_j45904610460141_2_alg».proof.Proof.Gen.Pre_finite_inputs
import proofs.«101623_j45904610460141_2_alg».proof.Proof.Gen.KernelIdeal.Value
import proofs.«101623_j45904610460141_2_alg».proof.Proof.Gen.ReferenceIdeal.Run
import proofs.«101623_j45904610460141_2_alg».proof.Proof.Gen.ReferenceIdeal.Read
import proofs.«101623_j45904610460141_2_alg».proof.Proof.KernelValue
import proofs.«101623_j45904610460141_2_alg».proof.Proof.RefValue
import proofs.«101623_j45904610460141_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is sixteen host operations in a row: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments, all finite, the kernel's result array ends at the attention in the
    arrangement "sum, then scale" and the reference's at the arrangement "normalise, then sum" of the same arrays: one
    function on finite inputs. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  rw [Cert.ReferenceIdeal.RefValue.result_eq, (hagree c).1, (hagree c).2.1, (hagree c).2.2]
  obtain ⟨h0, h1, h2⟩ := Cert.Finite.of_pre _ _ _ (hpre c)
  exact Cert.Attend.weighted_eq_scaled _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
